-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048x64 : Shape := ⟨2, ![2048, 64]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S4x2048x2048 .f32) (main_arg1 : IVec S2048x2048 32) (main_arg2 : FVec F S2048x64 .f32) (main_arg3 : FVec F S2048x64 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg3
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048x64 : Shape := ⟨2, ![2048, 64]⟩
abbrev S_ : Shape := ⟨0, ![]⟩
abbrev S4x2048 : Shape := ⟨2, ![4, 2048]⟩
abbrev S4x2048x1 : Shape := ⟨3, ![4, 2048, 1]⟩
abbrev S2048x64x32 : Shape := ⟨3, ![2048, 64, 32]⟩
abbrev S2048x64x1 : Shape := ⟨3, ![2048, 64, 1]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 67
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .i32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S2048x64x32, .i32⟩
  | .hbm, ⟨54, _⟩ => ⟨S2048x64x32, .f32⟩
  | .hbm, ⟨55, _⟩ => ⟨S2048x64x1, .f32⟩
  | .hbm, ⟨56, _⟩ => ⟨S2048x64x32, .f32⟩
  | .hbm, ⟨57, _⟩ => ⟨S2048x64x32, .f32⟩
  | .hbm, ⟨58, _⟩ => ⟨S2048x64x1, .f32⟩
  | .hbm, ⟨59, _⟩ => ⟨S2048x64x32, .f32⟩
  | .hbm, ⟨60, _⟩ => ⟨S2048x64x32, .f32⟩
  | .hbm, ⟨61, _⟩ => ⟨S2048x2048, .f32⟩
  | .hbm, ⟨62, _⟩ => ⟨S8192x2048, .f32⟩
  | .hbm, ⟨63, _⟩ => ⟨S8192x2048, .bf16⟩
  | .hbm, ⟨64, _⟩ => ⟨S2048x2048, .bf16⟩
  | .hbm, ⟨65, _⟩ => ⟨S8192x2048, .f32⟩
  | .hbm, ⟨66, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_c_6 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_c_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  shapeCasts_S2048x2048_S2048x64x32 : S2048x2048.ShapeCasts S2048x64x32
  bcast_S2048x64_S2048x64x1_0_1 : S2048x64.BroadcastsInDim S2048x64x1 (![0, 1] : Fin 2 → Fin S2048x64x1.rank)
  bcast_S2048x64x1_S2048x64x32_0_1_2 : S2048x64x1.BroadcastsInDim S2048x64x32 (![0, 1, 2] : Fin 3 → Fin S2048x64x32.rank)
  shapeCasts_S2048x64x32_S2048x2048 : S2048x64x32.ShapeCasts S2048x2048
  shapeCasts_S4x2048x2048_S8192x2048 : S4x2048x2048.ShapeCasts S8192x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S8192x2048_S4x2048x2048 : S8192x2048.ShapeCasts S4x2048x2048
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .bf16 = 32 ∨ (Rect.block (s := S2048x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x2048.size a
  hwx0_2 : ∀ i : grid0.Coords, EltTy.bits .f32 = 32 ∨ (Rect.block (s := S8192x2048) S1024x1024.size (cc0_transform_2 i) (hinb0_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v38) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048x64 : Shape := ⟨2, ![2048, 64]⟩
abbrev S_ : Shape := ⟨0, ![]⟩
abbrev S4x2048 : Shape := ⟨2, ![4, 2048]⟩
abbrev S4x2048x1 : Shape := ⟨3, ![4, 2048, 1]⟩
abbrev S2048x64x32 : Shape := ⟨3, ![2048, 64, 32]⟩
abbrev S2048x64x1 : Shape := ⟨3, ![2048, 64, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .i32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S2048x64x32, .i32⟩
  | .hbm, ⟨54, _⟩ => ⟨S2048x64x32, .f32⟩
  | .hbm, ⟨55, _⟩ => ⟨S2048x64x1, .f32⟩
  | .hbm, ⟨56, _⟩ => ⟨S2048x64x32, .f32⟩
  | .hbm, ⟨57, _⟩ => ⟨S2048x64x32, .f32⟩
  | .hbm, ⟨58, _⟩ => ⟨S2048x64x1, .f32⟩
  | .hbm, ⟨59, _⟩ => ⟨S2048x64x32, .f32⟩
  | .hbm, ⟨60, _⟩ => ⟨S2048x64x32, .f32⟩
  | .hbm, ⟨61, _⟩ => ⟨S2048x2048, .f32⟩
  | .hbm, ⟨62, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_c_6 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_c_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  shapeCasts_S2048x2048_S2048x64x32 : S2048x2048.ShapeCasts S2048x64x32
  bcast_S2048x64_S2048x64x1_0_1 : S2048x64.BroadcastsInDim S2048x64x1 (![0, 1] : Fin 2 → Fin S2048x64x1.rank)
  bcast_S2048x64x1_S2048x64x32_0_1_2 : S2048x64x1.BroadcastsInDim S2048x64x32 (![0, 1, 2] : Fin 3 → Fin S2048x64x32.rank)
  shapeCasts_S2048x64x32_S2048x2048 : S2048x64x32.ShapeCasts S2048x2048
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.BlockProduct.lean ====
/-
  One grid point of the kernel multiplies a block of 1024 rows of the activations (1024 x 2048) by a block of
  1024 rows of the weights (1024 x 2048), contracting the shared last axis: the stored block is
  (row p of the first) . (row q of the second) at entry (p, q). At the ideal instance that entry is the plain sum
  over the 2048 contraction positions: the accumulator is the zero splat, and the body's two shape casts are
  casts of a shape to itself.
-/
import proofs.«165304_j23502061044282_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem
open Idealize.ShloMosaic.ValueIdx

/-- The body's dimension numbers: both operands contract their axis 1, their axes 0 are the result's two axes. -/
abbrev dd : DotDims S1024x2048 S1024x2048 S1024x1024 := dot_S1024x2048_S1024x2048_S1024x1024_1_1_0_0_n_n

/-- The body loads and stores whole staging buffers: every offset is zero. -/
theorem zero_offsets : (![0, 0] : Fin 2 → Nat) = fun _ => 0 := funext fun a => by fin_cases a <;> rfl

/-- The left operand is read in the result's row ... -/
theorem lhs_row (j : S1024x1024.Idx) (q : dd.contr.Idx) : (dd.lhsIdx j q 0).val = (j 0).val := by
  unfold DotDims.lhsIdx
  rw [dif_neg (show ¬(0 : Fin S1024x2048.rank) ∈ dd.lhsBatch by decide), dif_pos (show (0 : Fin S1024x2048.rank) ∈ dd.lhsNonContracting by decide)]
  rfl
/-- ... at the contraction position; -/
theorem lhs_col (j : S1024x1024.Idx) (q : dd.contr.Idx) : (dd.lhsIdx j q 1).val = (q ⟨0, by decide⟩).val :=
  dd.lhsIdx_val_of_single rfl j q
/-- the right operand in the row the result's COLUMN names ... -/
theorem rhs_row (j : S1024x1024.Idx) (q : dd.contr.Idx) : (dd.rhsIdx j q 0).val = (j 1).val := by
  unfold DotDims.rhsIdx
  rw [dif_neg (show ¬(0 : Fin S1024x2048.rank) ∈ dd.rhsBatch by decide), dif_pos (show (0 : Fin S1024x2048.rank) ∈ dd.rhsNonContracting by decide)]
  rfl
/-- ... at the contraction position too: the second operand enters transposed. -/
theorem rhs_col (j : S1024x1024.Idx) (q : dd.contr.Idx) : (dd.rhsIdx j q 1).val = (q ⟨0, by decide⟩).val :=
  dd.rhsIdx_val_of_single rfl j q

/-- What the body leaves in the output's staging buffer, at entry (p, q): the product of row p of the first
    loaded block with row q of the second. -/
theorem out_apply (x0 x1 : Vec Ideal S1024x2048 .bf16) (p q : Fin 1024) :
    out0_2 (F := Ideal) x0 x1 (ix2 p q) = ∑ k : Fin 2048, x0 (ix2 p k) * x1 (ix2 q k) := by
  unfold out0_2
  rw [View.canon_unit_zero zero_offsets]
  simp only [View.ld_unit_zero (S := S1024x2048) zero_offsets]
  unfold k0_pay1
  rw [shapeCast_self, shapeCast_self]
  simp only [matmul]
  rw [Ideal.matmul_constant_zero_apply, ← Equiv.sum_comp (contrEquiv1 dd 2048 rfl rfl).symm]
  refine Finset.sum_congr rfl fun k _ => ?_
  have hk := contrEquiv1_symm_val dd 2048 rfl rfl k
  have el : dd.lhsIdx (ix2 p q) ((contrEquiv1 dd 2048 rfl rfl).symm k) = ix2 p k := funext fun a => Fin.ext (by
    match a with
    | ⟨0, _⟩ => exact lhs_row _ _
    | ⟨1, _⟩ => exact (lhs_col _ _).trans hk)
  have er : dd.rhsIdx (ix2 p q) ((contrEquiv1 dd 2048 rfl rfl).symm k) = ix2 q k := funext fun a => Fin.ext (by
    match a with
    | ⟨0, _⟩ => exact rhs_row _ _
    | ⟨1, _⟩ => exact (rhs_col _ _).trans hk)
  rw [el, er]

end Cert.KernelIdeal.BlockProduct

end
-- ==== Proof.WholeProduct.lean ====
/-
  From the blocks to the whole array. The grid is 8 x 2: point (a, b) multiplies rows 1024a .. 1024a+1023 of the
  first operand array by rows 1024b .. 1024b+1023 of the second and writes the 1024 x 1024 block (a, b) of the
  result. Every block is therefore a block of ONE function of the two operand arrays, the product of the first with
  the transpose of the second; the sixteen blocks tile the 8192 x 2048 result, so after the region the result array
  is that function.
-/
import proofs.«165304_j23502061044282_1_alg».proof.Proof.BlockProduct
import Idealize.ShloMosaic.Lib.Pipeline.Value
import Idealize.ShloMosaic.Lib.ValueIdx

noncomputable section

namespace Cert.KernelIdeal.WholeProduct

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The product of A with the transpose of B: entry (r, o) is row r of A against row o of B, summed over the 2048
    positions of the shared axis. -/
def rowsProduct (A : S8192x2048.Idx → EReal) (B : S2048x2048.Idx → EReal) : S8192x2048.Idx → EReal :=
  fun i => ∑ k : Fin 2048, A (ix2 (⟨(i 0).val, (i 0).isLt⟩ : Fin 8192) k) * B (ix2 (⟨(i 1).val, (i 1).isLt⟩ : Fin 2048) k)

/-- The three index maps over the sixteen points: the first operand's block follows the result's row block, the
    second operand's block the result's column block, neither moves along the contracted axis. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 1 :=
  (by decide +kernel : ∀ t : Fin grid0.N, _)

/-- Every block of the result is some point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- One entry of one block: if the loaded blocks are rows 1024 b0 .. and 1024 b1 .. of A and B, the stored block at j
    is the product's entry at the array index i that j names. -/
theorem block_entry (A : S8192x2048.Idx → EReal) (B : S2048x2048.Idx → EReal) (x0 x1 : Vec Ideal S1024x2048 .bf16)
    (b0 b1 : Nat) (hb0 : b0 ≤ 7) (hb1 : b1 ≤ 1)
    (h0 : ∀ (p : Fin 1024) (k : Fin 2048), x0 (ix2 p k) = A (ix2 (⟨b0 * 1024 + p.val, by have := p.isLt; omega⟩ : Fin 8192) k))
    (h1 : ∀ (q : Fin 1024) (k : Fin 2048), x1 (ix2 q k) = B (ix2 (⟨b1 * 1024 + q.val, by have := q.isLt; omega⟩ : Fin 2048) k))
    (j : S1024x1024.Idx) (i : S8192x2048.Idx) (hr : (i 0).val = b0 * 1024 + (j 0).val) (hc : (i 1).val = b1 * 1024 + (j 1).val) :
    out0_2 (F := Ideal) x0 x1 j = rowsProduct A B i := by
  obtain ⟨p, q, rfl⟩ : ∃ (p : Fin 1024) (q : Fin 1024), j = ix2 p q := ⟨j 0, j 1, eq_ix2 j⟩
  rw [BlockProduct.out_apply]
  unfold rowsProduct
  refine Finset.sum_congr rfl fun k _ => ?_
  rw [h0, h1]
  have ea : (⟨(i 0).val, (i 0).isLt⟩ : Fin 8192) = ⟨b0 * 1024 + p.val, by have := p.isLt; omega⟩ := Fin.ext hr
  have eb : (⟨(i 1).val, (i 1).isLt⟩ : Fin 2048) = ⟨b1 * 1024 + q.val, by have := q.isLt; omega⟩ := Fin.ext hc
  rw [ea, eb]

/-- WHAT POINT t WRITES BACK is block t of the product of the two operand arrays as the region finds them. -/
theorem flushed_eq (c : Dev nD) (t : Fin cfg0.N) :
    (dats m 0 c).flushed 2 t = ((cfg0.win 2).blk t).view.read (Elt Ideal) (rowsProduct (V m c main_v38) (V m c main_v39)) := by
  show (cfg0.win 2).cut (grid0.coords t) ((dats m 0 c).after 2 t) = _
  rw [after0_2]
  obtain ⟨e0, e1, e2, e3, e4, e5⟩ := idx_facts t
  have h0 : ∀ (p : Fin 1024) (k : Fin 2048), iblk m c 0 t (ix2 p k)
      = V m c main_v38 (ix2 (⟨win0_2.index t (0 : Fin 2) * 1024 + p.val, by have := p.isLt; omega⟩ : Fin 8192) k) := fun p k => by
    show V m c main_v38 (((cfg0.win 0).blk t).view.emb (ix2 p k)) = _
    refine congrArg (V m c main_v38) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 2048 + 1 * k.val = k.val; omega
  have h1 : ∀ (q : Fin 1024) (k : Fin 2048), iblk m c 1 t (ix2 q k)
      = V m c main_v39 (ix2 (⟨win0_2.index t (1 : Fin 2) * 1024 + q.val, by have := q.isLt; omega⟩ : Fin 2048) k) := fun q k => by
    show V m c main_v39 (((cfg0.win 1).blk t).view.emb (ix2 q k)) = _
    refine congrArg (V m c main_v39) (funext fun a => Fin.ext ?_)
    match a with
    | ⟨0, _⟩ => show win0_1.index t (0 : Fin 2) * 1024 + 1 * q.val = win0_2.index t (1 : Fin 2) * 1024 + q.val; omega
    | ⟨1, _⟩ => show win0_1.index t (1 : Fin 2) * 2048 + 1 * k.val = k.val; omega
  funext j
  show out0_2 (iblk m c 0 t) (iblk m c 1 t) j = rowsProduct (V m c main_v38) (V m c main_v39) (((cfg0.win 2).blk t).view.emb j)
  refine block_entry (V m c main_v38) (V m c main_v39) (iblk m c 0 t) (iblk m c 1 t) _ _ e4 e5 h0 h1 j _ ?_ ?_
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the result array is in point t's block iff each coordinate is in the block's range on its axis. -/
theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v40).slice (win0_2.rect t)).set ↔ _
  rw [View.set_slice_whole, Rect.mem_set_unit]
  exact Iff.rfl

/-- The sixteen blocks tile the result: entry (r, o) is in the block of the point with row block r / 1024 and column
    block o / 1024. -/
theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the region: the first operand array times the transpose of the second. -/
theorem final (c : Dev nD) : (dats m 0 c).arrAt 2 cfg0.N = rowsProduct (V m c main_v38) (V m c main_v39) :=
  (dats m 0 c).arrAt_eq_of_cover 2 _ (fun t _ => flushed_eq m c t) covered

end Cert.KernelIdeal.WholeProduct

end
-- ==== Proof.HostSide.lean ====
/-
  What the region finds in its two operand arrays. The program's host operations before the region are, line for
  line, the reference's own first operations: the per-token quantize-dequantize of the activations and the grouped
  dequantization of the integer weights. So the two arrays the kernel multiplies are the reference's two dot operands
  themselves, the activations flattened from [4, 2048, 2048] to [8192, 2048] rows, each then narrowed to bf16 (no
  change of value at the ideal instance). The two host chains are carried as the reference's stage functions and never
  opened.
-/
import proofs.«165304_j23502061044282_1_alg».proof.Proof.Gen.KernelIdeal.Frame
import proofs.«165304_j23502061044282_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- The second operand array: the dequantized weights (the reference's right dot operand), narrowed. -/
theorem weights_eq (c : Dev nD) :
    V m c main_v39 = truncf .bf16 (Cert.ReferenceIdeal.Read.val_main_v36 (F := F) (m ((c : Thread nD τ).loc main_arg1)) (m ((c : Thread nD τ).loc main_arg2)) (m ((c : Thread nD τ).loc main_arg3))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

set_option maxHeartbeats 2000000 in
/-- The first operand array: the quantized-dequantized activations (the reference's left dot operand), the two
    leading axes flattened into 8192 rows, narrowed. -/
theorem activations_eq (c : Dev nD) :
    V m c main_v38 = truncf .bf16 (shapeCast S8192x2048 (Cert.ReferenceIdeal.Read.val_main_v27 (F := F) (m ((c : Thread nD τ).loc main_arg0))) shapeCasts_S4x2048x2048_S8192x2048) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

end Cert.KernelIdeal.HostSide

end
-- ==== Proof.Bridge.lean ====
/-
  The flattened product, unflattened, is the batched contraction. The kernel's program flattens the activations
  X[b, s, i] into 8192 rows (row b * 2048 + s), multiplies by the transpose of the weights W[o, i], and unflattens the
  8192 x 2048 result to [4, 2048, 2048]; the reference contracts X's last axis with W's last axis directly. Entry
  (b, s, o) of either is the sum over i of X[b, s, i] * W[o, i]: a reshape keeps the row-major position, and
  narrowing to bf16 does not change an extended real.
-/
import proofs.«165304_j23502061044282_1_alg».proof.Proof.WholeProduct
import proofs.«165304_j23502061044282_1_alg».proof.Proof.Gen.ReferenceIdeal.Read
import Idealize.ShloMosaic.Lib.Pipeline.Value
import Idealize.ShloMosaic.Lib.ValueIdx

noncomputable section

namespace Cert.KernelIdeal.Bridge

open Cert.KernelIdeal Idealize.ShloMosaic
open Idealize.ShloMosaic.ValueIdx
open Cert.KernelIdeal.WholeProduct (rowsProduct)

/-- Entry (b, s, o) of the unflattened product of the flattened, narrowed operands is the reference's sum: the left
    operand read at (b, s, k), the right at (o, k). -/
theorem product_eq (X : FVec Ideal S4x2048x2048 .f32) (W : FVec Ideal S2048x2048 .f32)
    (h1 : S4x2048x2048.ShapeCasts S8192x2048) (h2 : S8192x2048.ShapeCasts S4x2048x2048) (hb : FTy.bits .bf16 < FTy.bits .f32)
    (i : S4x2048x2048.Idx) :
    shapeCast S4x2048x2048 (rowsProduct (truncf (F := Ideal) .bf16 (shapeCast S8192x2048 X h1) hb) (truncf (F := Ideal) .bf16 W hb)) h2 i
      = ∑ k : Fin 2048, X (Cert.ReferenceIdeal.Read.lidx_main_v37 i k) * W (Cert.ReferenceIdeal.Read.ridx_main_v37 i k) := by
  obtain ⟨b, s, o, rfl⟩ : ∃ (b : Fin 4) (s : Fin 2048) (o : Fin 2048), i = ix3 b s o := ⟨i 0, i 1, i 2, eq_ix3 i⟩
  have hs := s.isLt
  have hb' := b.isLt
  rw [shapeCast_apply _ h2 (ix3 b s o) (ix2 (⟨b.val * 2048 + s.val, by omega⟩ : Fin 8192) o)
    (by rewrite [Shape.rowMajor_val_two, Shape.rowMajor_val_three]; rfl)]
  unfold rowsProduct
  refine Finset.sum_congr rfl fun k _ => ?_
  rw [truncf_apply, truncf_apply,
    shapeCast_apply X h1 (ix2 (⟨b.val * 2048 + s.val, by omega⟩ : Fin 8192) k) (ix3 b s k)
      (by rewrite [Shape.rowMajor_val_two, Shape.rowMajor_val_three]; rfl)]
  congr 1
  · exact congrArg X (funext fun a => by match a with | ⟨0, _⟩ => rfl | ⟨1, _⟩ => rfl | ⟨2, _⟩ => rfl)
  · exact congrArg W (funext fun a => by match a with | ⟨0, _⟩ => rfl | ⟨1, _⟩ => rfl)

end Cert.KernelIdeal.Bridge

end
-- ==== Proof.KernelValue.lean ====
/-
  The kernel's program, run: its result array as one function of the argument arrays. After the region the 8192 x 2048
  array holds the product of the two operand arrays (the first times the transpose of the second); the one host
  operation after the region unflattens it to [4, 2048, 2048]. Read at an entry, with the operand arrays named by the
  host operations before the region, that is the reference's own sum of products.
-/
import proofs.«165304_j23502061044282_1_alg».proof.Proof.WholeProduct
import proofs.«165304_j23502061044282_1_alg».proof.Proof.HostSide
import proofs.«165304_j23502061044282_1_alg».proof.Proof.Bridge
import Idealize.ShloMosaic.Lib.StableHlo.Run

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.Pipeline (Dat)
open Cert.KernelIdeal.WholeProduct (rowsProduct)

variable (m : (ℓ : Loc nD τ sig) → Buf (Elt Ideal) ℓ) (ρ : Dev nD → PrngReg)

/-- The host operation after the region: the program's result is the region's result array, unflattened. -/
theorem tail_eq (c : Dev nD) :
    Pipeline.afterTail₀ cfgs (dats m) 0 (V0 m) [hostOps1] c main_v41
      = shapeCast S4x2048x2048 ((dats m 0 c).arrAt 2 cfg0.N) shapeCasts_S8192x2048_S4x2048x2048 := by
  unfold Pipeline.afterTail₀
  show StableHlo.after hostOps1 _ (Proc.devRef .tc main_v41) = _
  after_results
  have e := Pipeline.withArrays_arr spec0 launch0.win.arr_inj c (V0 m c) (fun w => (dats m 0 c).arrAt w (cfgs 0).N) 2
  rw [e]; rfl

/-- The program's result on core c: the product of the two operand arrays the region finds, unflattened. -/
def result (c : Dev nD) : FVec Ideal S4x2048x2048 .f32 :=
  shapeCast S4x2048x2048 (rowsProduct (V m c main_v38) (V m c main_v39)) shapeCasts_S8192x2048_S4x2048x2048

/-- Entry i = (b, s, o) of the result: the sum over k of the dequantized activation at (b, s, k) times the dequantized
    weight at (o, k) -- the two factors being the reference's own dot operands, as functions of the arguments. -/
theorem result_apply (c : Dev nD) (i : S4x2048x2048.Idx) :
    result m c i = ∑ k : Fin 2048,
      Cert.ReferenceIdeal.Read.val_main_v27 (F := Ideal) (m ((c : Thread nD τ).loc main_arg0)) (Cert.ReferenceIdeal.Read.lidx_main_v37 i k)
      * Cert.ReferenceIdeal.Read.val_main_v36 (F := Ideal) (m ((c : Thread nD τ).loc main_arg1)) (m ((c : Thread nD τ).loc main_arg2)) (m ((c : Thread nD τ).loc main_arg3)) (Cert.ReferenceIdeal.Read.ridx_main_v37 i k) := by
  unfold result
  rw [HostSide.activations_eq, HostSide.weights_eq]
  exact Bridge.product_eq _ _ _ _ _ i

/-- Every weakly fair execution of the kernel's program terminates with the result array at `result` and the argument
    arrays unchanged: the generated frame run, its post read at the result (the host operation after the region, then the
    region's array by the cover) and at the arguments. -/
theorem run : θ_run defs (onTc (τ := τ) (main (F := Ideal))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v41 (Pipeline.mem_restRefs_of main_v41 (by decide) (by decide))).trans
        ((tail_eq m c).trans (congrArg (fun x => shapeCast S4x2048x2048 x shapeCasts_S8192x2048_S4x2048x2048) (WholeProduct.final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.lean ====
/-
  A weight-only int4 / dynamic int8-activation linear layer: out[b, s, o] = sum over i of xq[b, s, i] * wq[o, i], where
  xq is the per-token asymmetric int8 quantize-dequantize of the activations x (each token's 2048 features scaled by
  its own min / max range, rounded, clipped to [-128, 127] and scaled back) and wq the grouped dequantization
  (w - zero) * scale of the integer weights, one zero and one scale per group of 32 input features.

  The kernel's program and the reference compute xq and wq by the same host operations, literal for literal. They
  differ only in how the contraction is carried out: the reference contracts the last axes of xq[4, 2048, 2048] and
  wq[2048, 2048] in one dot product; the kernel's program flattens xq to 8192 rows, narrows both operands to bf16,
  multiplies 1024-row blocks of the one by 1024-row blocks of the other on an 8 x 2 grid (each block product into a zero
  accumulator), and unflattens the 8192 x 2048 result. Over the extended reals narrowing is the identity, a sum does
  not depend on its order or grouping, and a reshape keeps the row-major position, so both results are the same sum at
  every entry; no property of the inputs is used, and the two host chains are never opened.

  The frames are the generated ones (the reference's is its generated run with the result dropped); no operation of the
  kernel was rewritten for the ideal reading, so there is nothing to preserve.
-/
import proofs.«165304_j23502061044282_1_alg».proof.Defs
import proofs.«165304_j23502061044282_1_alg».proof.Proof.Gen.Kernel
import proofs.«165304_j23502061044282_1_alg».proof.Proof.Gen.Kernel.Skeleton
import proofs.«165304_j23502061044282_1_alg».proof.Proof.Gen.Kernel.Launch
import proofs.«165304_j23502061044282_1_alg».proof.Proof.Gen.Kernel.Points
import proofs.«165304_j23502061044282_1_alg».proof.Proof.Gen.Kernel.Frame
import proofs.«165304_j23502061044282_1_alg».proof.Proof.Gen.KernelIdeal
import proofs.«165304_j23502061044282_1_alg».proof.Proof.Gen.KernelIdeal.Skeleton
import proofs.«165304_j23502061044282_1_alg».proof.Proof.Gen.KernelIdeal.Launch
import proofs.«165304_j23502061044282_1_alg».proof.Proof.Gen.KernelIdeal.Points
import proofs.«165304_j23502061044282_1_alg».proof.Proof.Gen.KernelIdeal.Frame
import proofs.«165304_j23502061044282_1_alg».proof.Proof.Gen.ReferenceIdeal
import proofs.«165304_j23502061044282_1_alg».proof.Proof.Gen.Pre_finite_inputs
import proofs.«165304_j23502061044282_1_alg».proof.Proof.Gen.ReferenceIdeal.Run
import proofs.«165304_j23502061044282_1_alg».proof.Proof.Gen.ReferenceIdeal.Read
import proofs.«165304_j23502061044282_1_alg».proof.Proof.KernelValue
import Idealize.ShloMosaic.Adequacy
import Idealize.ShloMosaic.Init

noncomputable section

namespace Cert.Proof

open Idealize.ShloMosaic Idealize.SL.Sem

/-- The kernel's program as printed terminates without a fault and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- And the reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories agreeing on the arguments both programs end with the same array: entry (b, s, o) of either is the sum
    over k of the dequantized activation at (b, s, k) times the dequantized weight at (o, k). -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v37 m' c = Cert.KernelIdeal.KernelValue.result m c
  rw [Cert.ReferenceIdeal.Read.val_main_v37_eq]
  funext i
  rw [Cert.ReferenceIdeal.Read.val_main_v37_apply, (hagree c).1, (hagree c).2.1, (hagree c).2.2.1, (hagree c).2.2.2]
  exact (Cert.KernelIdeal.KernelValue.result_apply m c i).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
